-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x32x128 : Shape := ⟨4, ![2, 8192, 32, 128]⟩
abbrev S2x16x32x128 : Shape := ⟨4, ![2, 16, 32, 128]⟩
abbrev S_ : Shape := ⟨0, ![]⟩

class Facts : Prop where
  bcast_S_S2x8192x32x128 : S_.BroadcastsInDim S2x8192x32x128 (![] : Fin 0 → Fin S2x8192x32x128.rank)
  reducesTo_S2x8192x32x128_S_d0_1_2_3 : S2x8192x32x128.ReducesTo [0, 1, 2, 3] S_
  h_S_ : 0 < S_.numel
  bcast_S_S2x16x32x128 : S_.BroadcastsInDim S2x16x32x128 (![] : Fin 0 → Fin S2x16x32x128.rank)
  reducesTo_S2x16x32x128_S_d0_1_2_3 : S2x16x32x128.ReducesTo [0, 1, 2, 3] S_

variable [Facts]

def fn_part1 {F : FTy → Type} [FloatOps F] (main_v13 : IVec S_ 1) (main_v16 : IVec S2x16x32x128 1) : IVec S_ 1 :=
  let main_c_5 : IVec S_ 1 := constantI S_ 1 1#1
  let main_v17 : IVec S_ 1 := (fun x v => Host.reduce IntOp.andi x v reducesTo_S2x16x32x128_S_d0_1_2_3 h_S_) main_v16 main_c_5
  let main_v18 : IVec S_ 1 := andi main_v13 main_v17
  main_v18

def fn {F : FTy → Type} [FloatOps F] (main_arg0 : FVec F S2x8192x32x128 .f32) (main_arg1 : FVec F S2x8192x32x128 .f32) (main_arg2 : FVec F S2x16x32x128 .f32) (main_arg3 : FVec F S2x16x32x128 .f32) : IVec S_ 1 :=
  let main_v0 : FVec F S2x8192x32x128 .f32 := Host.absf main_arg0
  let main_cst : FVec F S_ .f32 := constant S_ .f32 0x7F800000#32
  let main_v1 : FVec F S2x8192x32x128 .f32 := broadcastInDim S2x8192x32x128 ![] bcast_S_S2x8192x32x128 main_cst
  let main_v2 : IVec S2x8192x32x128 1 := cmpf .olt main_v0 main_v1
  let main_c : IVec S_ 1 := constantI S_ 1 1#1
  let main_v3 : IVec S_ 1 := (fun x v => Host.reduce IntOp.andi x v reducesTo_S2x8192x32x128_S_d0_1_2_3 h_S_) main_v2 main_c
  let main_v4 : FVec F S2x8192x32x128 .f32 := Host.absf main_arg1
  let main_cst_0 : FVec F S_ .f32 := constant S_ .f32 0x7F800000#32
  let main_v5 : FVec F S2x8192x32x128 .f32 := broadcastInDim S2x8192x32x128 ![] bcast_S_S2x8192x32x128 main_cst_0
  let main_v6 : IVec S2x8192x32x128 1 := cmpf .olt main_v4 main_v5
  let main_c_1 : IVec S_ 1 := constantI S_ 1 1#1
  let main_v7 : IVec S_ 1 := (fun x v => Host.reduce IntOp.andi x v reducesTo_S2x8192x32x128_S_d0_1_2_3 h_S_) main_v6 main_c_1
  let main_v8 : IVec S_ 1 := andi main_v3 main_v7
  let main_v9 : FVec F S2x16x32x128 .f32 := Host.absf main_arg2
  let main_cst_2 : FVec F S_ .f32 := constant S_ .f32 0x7F800000#32
  let main_v10 : FVec F S2x16x32x128 .f32 := broadcastInDim S2x16x32x128 ![] bcast_S_S2x16x32x128 main_cst_2
  let main_v11 : IVec S2x16x32x128 1 := cmpf .olt main_v9 main_v10
  let main_c_3 : IVec S_ 1 := constantI S_ 1 1#1
  let main_v12 : IVec S_ 1 := (fun x v => Host.reduce IntOp.andi x v reducesTo_S2x16x32x128_S_d0_1_2_3 h_S_) main_v11 main_c_3
  let main_v13 : IVec S_ 1 := andi main_v8 main_v12
  let main_v14 : FVec F S2x16x32x128 .f32 := Host.absf main_arg3
  let main_cst_4 : FVec F S_ .f32 := constant S_ .f32 0x7F800000#32
  let main_v15 : FVec F S2x16x32x128 .f32 := broadcastInDim S2x16x32x128 ![] bcast_S_S2x16x32x128 main_cst_4
  let main_v16 : IVec S2x16x32x128 1 := cmpf .olt main_v14 main_v15
  fn_part1 (F := F) main_v13 main_v16
-- ==== Kernel.lean ====
abbrev S2x8192x32x128 : Shape := ⟨4, ![2, 8192, 32, 128]⟩
abbrev S2x16x32x128 : Shape := ⟨4, ![2, 16, 32, 128]⟩
abbrev S2x8208x32x128 : Shape := ⟨4, ![2, 8208, 32, 128]⟩
abbrev S2x128x32x128 : Shape := ⟨4, ![2, 128, 32, 128]⟩

abbrev nBuf : Space → Nat
  | .hbm => 6
  | .vmem => 10
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x32x128, .f32⟩
  | .hbm, ⟨2, _⟩ => ⟨S2x16x32x128, .f32⟩
  | .hbm, ⟨3, _⟩ => ⟨S2x16x32x128, .f32⟩
  | .hbm, ⟨4, _⟩ => ⟨S2x8208x32x128, .f32⟩
  | .hbm, ⟨5, _⟩ => ⟨S2x8208x32x128, .f32⟩
  | .local _ .vmem, ⟨0, _⟩ => ⟨S2x128x32x128, .f32⟩
  | .local _ .vmem, ⟨1, _⟩ => ⟨S2x128x32x128, .f32⟩
  | .local _ .vmem, ⟨2, _⟩ => ⟨S2x128x32x128, .f32⟩
  | .local _ .vmem, ⟨3, _⟩ => ⟨S2x128x32x128, .f32⟩
  | .local _ .vmem, ⟨4, _⟩ => ⟨S2x16x32x128, .f32⟩
  | .local _ .vmem, ⟨5, _⟩ => ⟨S2x16x32x128, .f32⟩
  | .local _ .vmem, ⟨6, _⟩ => ⟨S2x128x32x128, .f32⟩
  | .local _ .vmem, ⟨7, _⟩ => ⟨S2x128x32x128, .f32⟩
  | .local _ .vmem, ⟨8, _⟩ => ⟨S2x128x32x128, .f32⟩
  | .local _ .vmem, ⟨9, _⟩ => ⟨S2x128x32x128, .f32⟩
  | _, _ => ⟨S2x8192x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .eq arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_1 (i : grid0.Coords) : Fin 4 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x16x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x16x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x128x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x128x32x128_S2x128x32x128_0_0_0_0 : ∀ a, (![0, 0, 0, 0] : Fin 4 → Nat) a + S2x128x32x128.size a ≤ S2x128x32x128.size a
  h_S2x128x32x128 : 0 < S2x128x32x128.numel
  inb_S2x16x32x128_S2x16x32x128_0_0_0_0 : ∀ a, (![0, 0, 0, 0] : Fin 4 → Nat) a + S2x16x32x128.size a ≤ S2x16x32x128.size a
  h_S2x16x32x128 : 0 < S2x16x32x128.numel
  inb_S2x128x32x128_S2x16x32x128_0_0_0_0 : ∀ a, (![0, 0, 0, 0] : Fin 4 → Nat) a + S2x16x32x128.size a ≤ S2x128x32x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x32x128.size a ≤ S2x8192x32x128.size a
  hwx0_0 : ∀ i : grid0.Coords, EltTy.bits .f32 = 32 ∨ (Rect.block (s := S2x8192x32x128) S2x128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x32x128.size a ≤ S2x8192x32x128.size a
  hwx0_1 : ∀ i : grid0.Coords, EltTy.bits .f32 = 32 ∨ (Rect.block (s := S2x8192x32x128) S2x128x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x16x32x128.size a ≤ S2x16x32x128.size a
  hwx0_2 : ∀ i : grid0.Coords, EltTy.bits .f32 = 32 ∨ (Rect.block (s := S2x16x32x128) S2x16x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x16x32x128.size a ≤ S2x16x32x128.size a
  hwx0_3 : ∀ i : grid0.Coords, EltTy.bits .f32 = 32 ∨ (Rect.block (s := S2x16x32x128) S2x16x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2x128x32x128.size a < S2x8208x32x128.size a
  hwx0_4 : ∀ i : grid0.Coords, EltTy.bits .f32 = 32 ∨ (Rect.unit (s := S2x8208x32x128) (fun a => cc0_transform_4 i a * S2x128x32x128.size a) (fun a => (Pipeline.Clip.of (cc0_transform_4 i a) (S2x128x32x128.size a) (S2x8208x32x128.size a)).extent (S2x128x32x128.size a)) fun a => Pipeline.Clip.inb (Pipeline.Clip.ok_of (hstart0_4 i a))).WholeWords (EltTy.packing .f32)
  hwxs0_4 : ∀ i : grid0.Coords, EltTy.bits .f32 = 32 ∨ (Rect.unit (s := S2x128x32x128) (fun _ => 0) (fun a => (Pipeline.Clip.of (cc0_transform_4 i a) (S2x128x32x128.size a) (S2x8208x32x128.size a)).extent (S2x128x32x128.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2x128x32x128.size a < S2x8208x32x128.size a
  hwx0_5 : ∀ i : grid0.Coords, EltTy.bits .f32 = 32 ∨ (Rect.unit (s := S2x8208x32x128) (fun a => cc0_transform_5 i a * S2x128x32x128.size a) (fun a => (Pipeline.Clip.of (cc0_transform_5 i a) (S2x128x32x128.size a) (S2x8208x32x128.size a)).extent (S2x128x32x128.size a)) fun a => Pipeline.Clip.inb (Pipeline.Clip.ok_of (hstart0_5 i a))).WholeWords (EltTy.packing .f32)
  hwxs0_5 : ∀ i : grid0.Coords, EltTy.bits .f32 = 32 ∨ (Rect.unit (s := S2x128x32x128) (fun _ => 0) (fun a => (Pipeline.Clip.of (cc0_transform_5 i a) (S2x128x32x128.size a) (S2x8208x32x128.size a)).extent (S2x128x32x128.size a)) fun a => (Nat.zero_add _).trans_le (Pipeline.Clip.extent_le (Pipeline.Clip.ok_of (hstart0_5 i a)))).WholeWords (EltTy.packing .f32)

variable [Facts₀]

abbrev win0_0 : Pipeline.Window sig grid0 :=
  Pipeline.Window.ofSpec (Memref.whole main_arg0) S2x128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x128x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16x32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x16x32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0_0) S2x128x32x128.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0_1) S2x128x32x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S2x8192x32x128 : Shape := ⟨4, ![2, 8192, 32, 128]⟩
abbrev S2x16x32x128 : Shape := ⟨4, ![2, 16, 32, 128]⟩
abbrev S2x8208x32x128 : Shape := ⟨4, ![2, 8208, 32, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x32x128, .f32⟩
  | .hbm, ⟨2, _⟩ => ⟨S2x16x32x128, .f32⟩
  | .hbm, ⟨3, _⟩ => ⟨S2x16x32x128, .f32⟩
  | .hbm, ⟨4, _⟩ => ⟨S2x8208x32x128, .f32⟩
  | .hbm, ⟨5, _⟩ => ⟨S2x8208x32x128, .f32⟩
  | _, _ => ⟨S2x8192x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S2x8192x32x128_S2x16x32x128_S2x8208x32x128_d1 : Shape.Concatenates [S2x8192x32x128, S2x16x32x128] S2x8208x32x128 1

variable [Facts₀]

class Facts : Prop extends Facts₀ where

variable [Facts]
-- ==== Proof.BitsBody.lean ====
/-
  The body of the cache append at one grid point, on any whole staging buffers, at any float instance.

  The grid has 65 points.  At a point below 64 the body copies the whole tile of each previous-cache block
  into the matching output tile; at point 64 it copies the 16 new rows into the first 16 rows of each output
  tile and leaves the other 112 rows of the tile as it found them.  Exactly one of the two branches is taken at
  every point.  Stated here: the two branch conditions in closed form over the grid, and for each case what the
  six staging buffers hold when the body returns.
-/
import proofs.«176381_j38603166056862_2_alg».proof.Proof.Gen.Kernel.Frame
import proofs.«176381_j38603166056862_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branches, over the grid -/

/-- The copy of a previous-cache tile is taken exactly at the points below 64. -/
theorem copies_iff : ∀ t : Fin cfg0.N, k0_cond1 (grid0.coords t) = 1#1 ↔ t.val < 64 :=
  (by decide +kernel : ∀ t : Fin grid0.N, k0_cond1 (grid0.coords t) = 1#1 ↔ t.val < 64)

/-- The copy of the new rows is taken exactly at point 64. -/
theorem appends_iff : ∀ t : Fin cfg0.N, k0_cond2 (grid0.coords t) = 1#1 ↔ t.val = 64 :=
  (by decide +kernel : ∀ t : Fin grid0.N, k0_cond2 (grid0.coords t) = 1#1 ↔ t.val = 64)

/-! ## The rectangles the body stores through -/

/-- The whole output tile, and its first 16 rows on the sequence axis. -/
abbrev rTile : Rect S2x128x32x128 := Rect.unit (s := S2x128x32x128) ![0, 0, 0, 0] S2x128x32x128.size inb_S2x128x32x128_S2x128x32x128_0_0_0_0
abbrev rHead : Rect S2x128x32x128 := Rect.unit (s := S2x128x32x128) ![0, 0, 0, 0] S2x16x32x128.size inb_S2x128x32x128_S2x16x32x128_0_0_0_0

theorem zero4 : (![0, 0, 0, 0] : Fin 4 → Nat) = fun _ => 0 := funext fun a => by fin_cases a <;> rfl

/-- The first 16 rows, on the sequence axis, of contents of an output tile. -/
abbrev head (X : Vec F S2x128x32x128 .f32) : Vec F S2x16x32x128 .f32 := View.ld X rHead

/-! ## The body's triple, case by case -/

set_option maxHeartbeats 1000000 in
/-- BELOW POINT 64: the two output tiles end holding the two previous-cache tiles, whole; the four inputs'
    buffers are left as found. -/
theorem run_copy (c : Dev nD) (i : grid0.Coords) (arg1 : Memref sig .tc .vmem S2x128x32x128 .f32) (harg1 : arg1.IsWhole) (arg2 : Memref sig .tc .vmem S2x128x32x128 .f32) (harg2 : arg2.IsWhole) (arg3 : Memref sig .tc .vmem S2x16x32x128 .f32) (harg3 : arg3.IsWhole) (arg4 : Memref sig .tc .vmem S2x16x32x128 .f32) (harg4 : arg4.IsWhole) (arg5 : Memref sig .tc .vmem S2x128x32x128 .f32) (harg5 : arg5.IsWhole) (arg6 : Memref sig .tc .vmem S2x128x32x128 .f32) (harg6 : arg6.IsWhole)
    (hc0 : k0_cond1 i = 1#1) (hc1 : ¬ k0_cond2 i = 1#1)
    (x0 x1 : Vec F S2x128x32x128 .f32) (x2 x3 : Vec F S2x16x32x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x0 ∗ owns (c : Thread nD τ) arg6 fullShare x1) -∗ K ⟨⟩))
          ⊢ wp frame (wpE (defs₀ (F := F)) Variants.none c none) E (cc0__append_kv_kernel i arg1 harg1 arg2 harg2 arg3 harg3 arg4 harg4 arg5 harg5 arg6 harg6) K := by
    intro E K
    simp only [cc0__append_kv_kernel_eq_skeleton]; unfold cc0__append_kv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_eq_canon _ _ _ (fun y => View.cover_of_tiled [⟨rTile, _⟩] S2x128x32x128.size (by rfl) y),
        View.readAt_eq_ld, harg1.read_unread, View.canon_unit_zero zero4]
      exact View.ld_unit_zero (S := S2x128x32x128) zero4 _ _
    iexists _; isplitr; swap; · iexact H5
    ipureintro
    rw [View.read_writes_eq_canon _ _ _ (fun y => View.cover_of_tiled [⟨rTile, _⟩] S2x128x32x128.size (by rfl) y),
      View.readAt_eq_ld, harg2.read_unread, View.canon_unit_zero zero4]
    exact View.ld_unit_zero (S := S2x128x32x128) zero4 _ _

set_option maxHeartbeats 1000000 in
/-- AT POINT 64: the first 16 rows of the two output tiles end holding the two new tiles; nothing is said of
    the tiles' other rows (the body does not touch them); the four inputs' buffers are left as found. -/
theorem run_append (c : Dev nD) (i : grid0.Coords) (arg1 : Memref sig .tc .vmem S2x128x32x128 .f32) (harg1 : arg1.IsWhole) (arg2 : Memref sig .tc .vmem S2x128x32x128 .f32) (harg2 : arg2.IsWhole) (arg3 : Memref sig .tc .vmem S2x16x32x128 .f32) (harg3 : arg3.IsWhole) (arg4 : Memref sig .tc .vmem S2x16x32x128 .f32) (harg4 : arg4.IsWhole) (arg5 : Memref sig .tc .vmem S2x128x32x128 .f32) (harg5 : arg5.IsWhole) (arg6 : Memref sig .tc .vmem S2x128x32x128 .f32) (harg6 : arg6.IsWhole)
    (hc0 : ¬ k0_cond1 i = 1#1) (hc1 : k0_cond2 i = 1#1)
    (x0 x1 : Vec F S2x128x32x128 .f32) (x2 x3 : Vec F S2x16x32x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ X, ⌜head X = x2⌝ ∗ owns (c : Thread nD τ) arg5 fullShare X) ∗ (∃ X, ⌜head X = x3⌝ ∗ owns (c : Thread nD τ) arg6 fullShare X)) -∗ K ⟨⟩))
          ⊢ wp frame (wpE (defs₀ (F := F)) Variants.none c none) E (cc0__append_kv_kernel i arg1 harg1 arg2 harg2 arg3 harg3 arg4 harg4 arg5 harg5 arg6 harg6) K := by
    intro E K
    simp only [cc0__append_kv_kernel_eq_skeleton]; unfold cc0__append_kv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap
      · iexists _; isplitr; swap; · iexact H4
        ipureintro; rfl
      ipureintro
      funext x
      show View.read (Elt F) arg5.view (arg5.view.writes (Elt F) f4 [⟨rHead, _⟩]) (rHead.emb x) = x2 x
      rw [View.read_writes_cons_emb, View.readAt_eq_ld, harg3.read_unread]
      exact congrFun (View.ld_unit_zero (S := S2x16x32x128) zero4 _ x2) x
    iexists _; isplitr; swap
    · iexists _; isplitr; swap; · iexact H5
      ipureintro; rfl
    ipureintro
    funext x
    show View.read (Elt F) arg6.view (arg6.view.writes (Elt F) f5 [⟨rHead, _⟩]) (rHead.emb x) = x3 x
    rw [View.read_writes_cons_emb, View.readAt_eq_ld, harg4.read_unread]
    exact congrFun (View.ld_unit_zero (S := S2x16x32x128) zero4 _ x3) x

end Cert.Kernel.Body

end
-- ==== Proof.Concat.lean ====
/-
  The specification: each result is its two arguments laid end to end along the sequence axis.

  Both outputs of the cache append are the rank-4 array of shape [2, 8208, 32, 128] whose rows 0 … 8191 on
  axis 1 are the rows of the previous cache (shape [2, 8192, 32, 128]) and whose rows 8192 … 8207 are the rows
  of the new entries (shape [2, 16, 32, 128]); axes 0, 2 and 3 pass through.  Stated here once, as a function of
  the two argument arrays over any element type, with the two ways of reading it at an index.
-/
import Idealize.ShloMosaic.Lib.Pipeline.Value
import Idealize.ShloMosaic.Lib.ValueIdx

noncomputable section

namespace Cert.Append

open Idealize.ShloMosaic

/-- The previous cache's shape, the new entries' shape, and the result's. -/
abbrev SPrev : Shape := ⟨4, ![2, 8192, 32, 128]⟩
abbrev SNew : Shape := ⟨4, ![2, 16, 32, 128]⟩
abbrev SCat : Shape := ⟨4, ![2, 8208, 32, 128]⟩

theorem hcat : Shape.Concatenates [SPrev, SNew] SCat (1 : Fin 4) := by decide

/-- The two arrays laid end to end along axis 1. -/
def cat {α : Type} (a : SPrev.Idx → α) (b : SNew.Idx → α) : SCat.Idx → α :=
  concatenate SCat (1 : Fin 4) [⟨SPrev, a⟩, ⟨SNew, b⟩] hcat

/-- A row below 8192 is the previous cache's row. -/
theorem cat_prev {α : Type} (a : SPrev.Idx → α) (b : SNew.Idx → α) (j : SCat.Idx) (i : SPrev.Idx)
    (hi : ∀ d : Fin 4, (i d).val = (j d).val) : cat a b j = a i := by
  unfold cat
  exact concatenate_pair_apply_left (t := SCat) (1 : Fin 4) a b hcat j rfl i hi

/-- A row from 8192 on is the new entries' row, 8192 less. -/
theorem cat_new {α : Type} (a : SPrev.Idx → α) (b : SNew.Idx → α) (j : SCat.Idx) (i : SNew.Idx)
    (h0 : (i 0).val = (j 0).val) (h1 : (i 1).val + 8192 = (j 1).val) (h2 : (i 2).val = (j 2).val)
    (h3 : (i 3).val = (j 3).val) : cat a b j = b i := by
  unfold cat
  refine concatenate_pair_apply_right (t := SCat) (1 : Fin 4) a b hcat j rfl rfl i (fun d hd => ?_) (by exact h1)
  match d with
  | ⟨0, _⟩ => exact h0
  | ⟨1, _⟩ => exact absurd rfl hd
  | ⟨2, _⟩ => exact h2
  | ⟨3, _⟩ => exact h3

end Cert.Append

end
-- ==== Proof.BitsRun.lean ====
/-
  The cache append as a pipeline: its proof data, the body obligation at every grid point, the run and the frame.

  Each result array is the concatenation, along the sequence axis, of a previous cache (8192 rows) and the new
  entries (16 rows).  Point t < 64 writes back rows 128 t … 128 t + 127, the previous cache's rows there; point 64
  writes back rows 8192 … 8207 only — its tile overhangs the array by 112 rows, which the write-back leaves out —
  and those are the 16 new rows.  So what every point writes back is that point's block of the concatenation, and
  that is all the proof data says of an output tile: the rows of the tile that are not written back are not named.
-/
import proofs.«176381_j38603166056862_2_alg».proof.Proof.BitsBody
import proofs.«176381_j38603166056862_2_alg».proof.Proof.Concat

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The results, as whole arrays, and their blocks -/

/-- The key result: the previous keys then the new keys, along the sequence axis; the value result likewise. -/
def catK (c : Dev nD) : S2x8208x32x128.Idx → Elt F .f32 :=
  Cert.Append.cat (V m c main_arg0 : S2x8192x32x128.Idx → Elt F .f32) (V m c main_arg2 : S2x16x32x128.Idx → Elt F .f32)
def catV (c : Dev nD) : S2x8208x32x128.Idx → Elt F .f32 :=
  Cert.Append.cat (V m c main_arg1 : S2x8192x32x128.Idx → Elt F .f32) (V m c main_arg3 : S2x16x32x128.Idx → Elt F .f32)

/-- Point t's block of each result: the part of the tile that lies inside the array. -/
def blkK (c : Dev nD) (t : Fin cfg0.N) : ((cfg0.win 4).xblock (cfg0.grid.coords t)).Idx → Elt F (cfg0.win 4).elt :=
  ((cfg0.win 4).blk t).view.read (Elt F) (catK m c)
def blkV (c : Dev nD) (t : Fin cfg0.N) : ((cfg0.win 5).xblock (cfg0.grid.coords t)).Idx → Elt F (cfg0.win 5).elt :=
  ((cfg0.win 5).blk t).view.read (Elt F) (catV m c)

/-! ## The proof data -/

/-- After the body at point t: each input's buffer at its block; each output's at its block of the concatenation
    on the rows written back, and (a choice nothing reads) the zero word on the others. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) (fun _ => Scalar.ofBits .f32 0#32) (blkK m c t)
    | ⟨5, _⟩ => win0_5.fill (grid0.coords t) (fun _ => Scalar.ofBits .f32 0#32) (blkV m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out4 (c : Dev nD) (t : Fin cfg0.N) :
    (dats m 0 c).after 4 t = win0_4.fill (grid0.coords t) (fun _ => Scalar.ofBits .f32 0#32) (blkK m c t) := by dsimp only [dats]
theorem after_out5 (c : Dev nD) (t : Fin cfg0.N) :
    (dats m 0 c).after 5 t = win0_5.fill (grid0.coords t) (fun _ => Scalar.ofBits .f32 0#32) (blkV m c t) := by dsimp only [dats]

/-- What a point writes back is its block of the concatenation. -/
theorem flushedK (c : Dev nD) (t : Fin cfg0.N) : (dats m 0 c).flushed 4 t = blkK m c t := by
  show (cfg0.win 4).cut (cfg0.grid.coords t) ((dats m 0 c).after 4 t) = _
  rw [after_out4]; exact win0_4.cut_fill _ _ _
theorem flushedV (c : Dev nD) (t : Fin cfg0.N) : (dats m 0 c).flushed 5 t = blkV m c t := by
  show (cfg0.win 5).cut (cfg0.grid.coords t) ((dats m 0 c).after 5 t) = _
  rw [after_out5]; exact win0_5.cut_fill _ _ _

/-! ## What the body finds -/

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d

/-- Every point writes both outputs back, so an output tile arrives at contents nothing names. -/
theorem before_out4 (c : Dev nD) (t : Fin cfg0.N) (d) : (dats m 0 c).before 4 t d = d :=
  (dats m 0 c).before_out_reset 4 rfl t (by
    by_cases h : t.val = 0
    · exact .inl h
    · exact .inr ⟨h, flush0_4 _⟩) d
theorem before_out5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## What the body must leave -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- One of the two branches stores into the outputs at every point. -/
theorem live4 : ∀ t : Fin cfg0.N, cfg0.idle 4 (grid0.coords t) = false :=
  (by decide +kernel : ∀ t : Fin grid0.N, idle0 4 (grid0.coords t) = false)
theorem live5 : ∀ t : Fin cfg0.N, cfg0.idle 5 (grid0.coords t) = false :=
  (by decide +kernel : ∀ t : Fin grid0.N, idle0 5 (grid0.coords t) = false)

theorem leaves_in0 (c : Dev nD) (t : Fin cfg0.N) :
    (dats m 0 c).leaves 0 t = owns (c : Thread nD τ) (st0_0 t) fullShare (iblk m c 0 t) := by
  unfold Dat.leaves; rw [live0 t, after_in0]
theorem leaves_in1 (c : Dev nD) (t : Fin cfg0.N) :
    (dats m 0 c).leaves 1 t = owns (c : Thread nD τ) (st0_1 t) fullShare (iblk m c 1 t) := by
  unfold Dat.leaves; rw [live1 t, after_in1]
theorem leaves_in2 (c : Dev nD) (t : Fin cfg0.N) :
    (dats m 0 c).leaves 2 t = owns (c : Thread nD τ) (st0_2 t) fullShare (iblk m c 2 t) := by
  unfold Dat.leaves; rw [live2 t, after_in2]
theorem leaves_in3 (c : Dev nD) (t : Fin cfg0.N) :
    (dats m 0 c).leaves 3 t = owns (c : Thread nD τ) (st0_3 t) fullShare (iblk m c 3 t) := by
  unfold Dat.leaves; rw [live3 t, after_in3]
/-- An output tile is stated on the rows written back only: it may hold anything that is the point's block of
    the concatenation there. -/
theorem leaves_out4 (c : Dev nD) (t : Fin cfg0.N) :
    (dats m 0 c).leaves 4 t = iprop(∃ d, owns (c : Thread nD τ) (st0_4 t) fullShare (win0_4.fill (grid0.coords t) d (blkK m c t))) := by
  have e := flushedK m c t
  unfold Dat.flushed at e
  unfold Dat.leaves; rw [live4 t, e]
theorem leaves_out5 (c : Dev nD) (t : Fin cfg0.N) :
    (dats m 0 c).leaves 5 t = iprop(∃ d, owns (c : Thread nD τ) (st0_5 t) fullShare (win0_5.fill (grid0.coords t) d (blkV m c t))) := by
  have e := flushedV m c t
  unfold Dat.flushed at e
  unfold Dat.leaves; rw [live5 t, e]

/-! ## The index maps and the tiles' extents, over the grid -/

/-- A previous cache's block index on the sequence axis is the point, held at 63 from point 63 on; a result's is
    the point; the new entries' is zero; on the other three axes every block index is zero. -/
theorem idx0 : ∀ t : Fin cfg0.N, win0_0.index t (0 : Fin 4) = 0 ∧ win0_0.index t (1 : Fin 4) = (if t.val < 64 then t.val else 63) ∧ win0_0.index t (2 : Fin 4) = 0 ∧ win0_0.index t (3 : Fin 4) = 0 :=
  (by decide +kernel : ∀ t : Fin grid0.N, _)
theorem idx1 : ∀ t : Fin cfg0.N, win0_1.index t (0 : Fin 4) = 0 ∧ win0_1.index t (1 : Fin 4) = (if t.val < 64 then t.val else 63) ∧ win0_1.index t (2 : Fin 4) = 0 ∧ win0_1.index t (3 : Fin 4) = 0 :=
  (by decide +kernel : ∀ t : Fin grid0.N, _)
theorem idx2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 4) = 0 ∧ win0_4.index t (1 : Fin 4) = t.val ∧ win0_4.index t (2 : Fin 4) = 0 ∧ win0_4.index t (3 : Fin 4) = 0 :=
  (by decide +kernel : ∀ t : Fin grid0.N, _)
theorem idx5 : ∀ t : Fin cfg0.N, win0_5.index t (0 : Fin 4) = 0 ∧ win0_5.index t (1 : Fin 4) = t.val ∧ win0_5.index t (2 : Fin 4) = 0 ∧ win0_5.index t (3 : Fin 4) = 0 :=
  (by decide +kernel : ∀ t : Fin grid0.N, _)

/-- The part of a result's tile inside the array: all 128 rows below point 64, the first 16 at point 64. -/
theorem ext4 : ∀ t : Fin cfg0.N, win0_4.xsize (grid0.coords t) (0 : Fin 4) = 2 ∧ win0_4.xsize (grid0.coords t) (1 : Fin 4) = (if t.val < 64 then 128 else 16) ∧ win0_4.xsize (grid0.coords t) (2 : Fin 4) = 32 ∧ win0_4.xsize (grid0.coords t) (3 : Fin 4) = 128 :=
  (by decide +kernel : ∀ t : Fin grid0.N, _)
theorem ext5 : ∀ t : Fin cfg0.N, win0_5.xsize (grid0.coords t) (0 : Fin 4) = 2 ∧ win0_5.xsize (grid0.coords t) (1 : Fin 4) = (if t.val < 64 then 128 else 16) ∧ win0_5.xsize (grid0.coords t) (2 : Fin 4) = 32 ∧ win0_5.xsize (grid0.coords t) (3 : Fin 4) = 128 :=
  (by decide +kernel : ∀ t : Fin grid0.N, _)

/-! ## The blocks of the concatenation are what the body stores -/

/-- BELOW POINT 64 the tile lies inside the array, and the block of the concatenation there is the previous
    cache's block: a tile holding that block holds the concatenation's block on every row. -/
theorem fill_copyK (c : Dev nD) (t : Fin cfg0.N) (h : t.val < 64) :
    win0_4.fill (grid0.coords t) (iblk m c 0 t) (blkK m c t) = iblk m c 0 t := by
  have e : blkK m c t = win0_4.cut (grid0.coords t) (iblk m c 0 t) := by
    funext j
    obtain ⟨p0, p1, p2, p3⟩ := idx0 t
    obtain ⟨q0, q1, q2, q3⟩ := idx4 t
    rw [if_pos h] at p1
    show catK m c (((cfg0.win 4).blk t).view.emb j) = V m c main_arg0 (((cfg0.win 0).blk t).view.emb (win0_4.xinj (grid0.coords t) j))
    unfold catK
    refine Cert.Append.cat_prev _ _ _ _ (fun d => ?_)
    match d with
    | ⟨0, _⟩ => show win0_0.index t (0 : Fin 4) * 2 + 1 * (j 0).val = win0_4.index t (0 : Fin 4) * 2 + 1 * (j 0).val; omega
    | ⟨1, _⟩ => show win0_0.index t (1 : Fin 4) * 128 + 1 * (j 1).val = win0_4.index t (1 : Fin 4) * 128 + 1 * (j 1).val; omega
    | ⟨2, _⟩ => show win0_0.index t (2 : Fin 4) * 32 + 1 * (j 2).val = win0_4.index t (2 : Fin 4) * 32 + 1 * (j 2).val; omega
    | ⟨3, _⟩ => show win0_0.index t (3 : Fin 4) * 128 + 1 * (j 3).val = win0_4.index t (3 : Fin 4) * 128 + 1 * (j 3).val; omega
  rw [e]; exact win0_4.fill_cut _ _
theorem fill_copyV (c : Dev nD) (t : Fin cfg0.N) (h : t.val < 64) :
    win0_5.fill (grid0.coords t) (iblk m c 1 t) (blkV m c t) = iblk m c 1 t := by
  have e : blkV m c t = win0_5.cut (grid0.coords t) (iblk m c 1 t) := by
    funext j
    obtain ⟨p0, p1, p2, p3⟩ := idx1 t
    obtain ⟨q0, q1, q2, q3⟩ := idx5 t
    rw [if_pos h] at p1
    show catV m c (((cfg0.win 5).blk t).view.emb j) = V m c main_arg1 (((cfg0.win 1).blk t).view.emb (win0_5.xinj (grid0.coords t) j))
    unfold catV
    refine Cert.Append.cat_prev _ _ _ _ (fun d => ?_)
    match d with
    | ⟨0, _⟩ => show win0_1.index t (0 : Fin 4) * 2 + 1 * (j 0).val = win0_5.index t (0 : Fin 4) * 2 + 1 * (j 0).val; omega
    | ⟨1, _⟩ => show win0_1.index t (1 : Fin 4) * 128 + 1 * (j 1).val = win0_5.index t (1 : Fin 4) * 128 + 1 * (j 1).val; omega
    | ⟨2, _⟩ => show win0_1.index t (2 : Fin 4) * 32 + 1 * (j 2).val = win0_5.index t (2 : Fin 4) * 32 + 1 * (j 2).val; omega
    | ⟨3, _⟩ => show win0_1.index t (3 : Fin 4) * 128 + 1 * (j 3).val = win0_5.index t (3 : Fin 4) * 128 + 1 * (j 3).val; omega
  rw [e]; exact win0_5.fill_cut _ _

/-- AT POINT 64 only the tile's first 16 rows lie inside the array, and the block of the concatenation there is
    the new entries: a tile whose first 16 rows hold them holds the concatenation's block on the rows written back. -/
theorem fill_appendK (c : Dev nD) (t : Fin cfg0.N) (h : t.val = 64) (X : Vec F S2x128x32x128 .f32)
    (hX : head X = iblk m c 2 t) : win0_4.fill (grid0.coords t) X (blkK m c t) = X := by
  have e : blkK m c t = win0_4.cut (grid0.coords t) X := by
    funext j
    obtain ⟨p0, p1, p2, p3⟩ := idx2 t
    obtain ⟨q0, q1, q2, q3⟩ := idx4 t
    obtain ⟨s0, s1, s2, s3⟩ := ext4 t
    rw [if_neg (by omega)] at s1
    have b0 : (j 0).val < 2 := lt_of_lt_of_eq (j 0).isLt s0
    have b1 : (j 1).val < 16 := lt_of_lt_of_eq (j 1).isLt s1
    have b2 : (j 2).val < 32 := lt_of_lt_of_eq (j 2).isLt s2
    have b3 : (j 3).val < 128 := lt_of_lt_of_eq (j 3).isLt s3
    -- the same coordinates, as an index of the new entries' tile
    let j' : S2x16x32x128.Idx := fun a => match a with
      | ⟨0, _⟩ => ⟨(j 0).val, b0⟩ | ⟨1, _⟩ => ⟨(j 1).val, b1⟩ | ⟨2, _⟩ => ⟨(j 2).val, b2⟩ | ⟨3, _⟩ => ⟨(j 3).val, b3⟩
    have hx : win0_4.cut (grid0.coords t) X j = head X j' := by
      show X (win0_4.xinj (grid0.coords t) j) = X (rHead.emb j')
      congr 1; funext a; apply Fin.ext
      match a with
      | ⟨0, _⟩ => show (j 0).val = 0 + 1 * (j 0).val; omega
      | ⟨1, _⟩ => show (j 1).val = 0 + 1 * (j 1).val; omega
      | ⟨2, _⟩ => show (j 2).val = 0 + 1 * (j 2).val; omega
      | ⟨3, _⟩ => show (j 3).val = 0 + 1 * (j 3).val; omega
    rw [hx, hX]
    show catK m c (((cfg0.win 4).blk t).view.emb j) = V m c main_arg2 (((cfg0.win 2).blk t).view.emb j')
    unfold catK
    refine Cert.Append.cat_new _ _ _ _ ?_ ?_ ?_ ?_
    · show win0_2.index t (0 : Fin 4) * 2 + 1 * (j 0).val = win0_4.index t (0 : Fin 4) * 2 + 1 * (j 0).val; omega
    · show win0_2.index t (1 : Fin 4) * 16 + 1 * (j 1).val + 8192 = win0_4.index t (1 : Fin 4) * 128 + 1 * (j 1).val; omega
    · show win0_2.index t (2 : Fin 4) * 32 + 1 * (j 2).val = win0_4.index t (2 : Fin 4) * 32 + 1 * (j 2).val; omega
    · show win0_2.index t (3 : Fin 4) * 128 + 1 * (j 3).val = win0_4.index t (3 : Fin 4) * 128 + 1 * (j 3).val; omega
  rw [e]; exact win0_4.fill_cut _ _
theorem fill_appendV (c : Dev nD) (t : Fin cfg0.N) (h : t.val = 64) (X : Vec F S2x128x32x128 .f32)
    (hX : head X = iblk m c 3 t) : win0_5.fill (grid0.coords t) X (blkV m c t) = X := by
  have e : blkV m c t = win0_5.cut (grid0.coords t) X := by
    funext j
    obtain ⟨p0, p1, p2, p3⟩ := idx3 t
    obtain ⟨q0, q1, q2, q3⟩ := idx5 t
    obtain ⟨s0, s1, s2, s3⟩ := ext5 t
    rw [if_neg (by omega)] at s1
    have b0 : (j 0).val < 2 := lt_of_lt_of_eq (j 0).isLt s0
    have b1 : (j 1).val < 16 := lt_of_lt_of_eq (j 1).isLt s1
    have b2 : (j 2).val < 32 := lt_of_lt_of_eq (j 2).isLt s2
    have b3 : (j 3).val < 128 := lt_of_lt_of_eq (j 3).isLt s3
    -- the same coordinates, as an index of the new entries' tile
    let j' : S2x16x32x128.Idx := fun a => match a with
      | ⟨0, _⟩ => ⟨(j 0).val, b0⟩ | ⟨1, _⟩ => ⟨(j 1).val, b1⟩ | ⟨2, _⟩ => ⟨(j 2).val, b2⟩ | ⟨3, _⟩ => ⟨(j 3).val, b3⟩
    have hx : win0_5.cut (grid0.coords t) X j = head X j' := by
      show X (win0_5.xinj (grid0.coords t) j) = X (rHead.emb j')
      congr 1; funext a; apply Fin.ext
      match a with
      | ⟨0, _⟩ => show (j 0).val = 0 + 1 * (j 0).val; omega
      | ⟨1, _⟩ => show (j 1).val = 0 + 1 * (j 1).val; omega
      | ⟨2, _⟩ => show (j 2).val = 0 + 1 * (j 2).val; omega
      | ⟨3, _⟩ => show (j 3).val = 0 + 1 * (j 3).val; omega
    rw [hx, hX]
    show catV m c (((cfg0.win 5).blk t).view.emb j) = V m c main_arg3 (((cfg0.win 3).blk t).view.emb j')
    unfold catV
    refine Cert.Append.cat_new _ _ _ _ ?_ ?_ ?_ ?_
    · show win0_3.index t (0 : Fin 4) * 2 + 1 * (j 0).val = win0_5.index t (0 : Fin 4) * 2 + 1 * (j 0).val; omega
    · show win0_3.index t (1 : Fin 4) * 16 + 1 * (j 1).val + 8192 = win0_5.index t (1 : Fin 4) * 128 + 1 * (j 1).val; omega
    · show win0_3.index t (2 : Fin 4) * 32 + 1 * (j 2).val = win0_5.index t (2 : Fin 4) * 32 + 1 * (j 2).val; omega
    · show win0_3.index t (3 : Fin 4) * 128 + 1 * (j 3).val = win0_5.index t (3 : Fin 4) * 128 + 1 * (j 3).val; omega
  rw [e]; exact win0_5.fill_cut _ _

/-! ## The body obligation -/

set_option maxHeartbeats 800000 in
/-- The body at any point: the inputs' tiles hold their blocks, the outputs' anything; the point is below 64 or is
    64, and in either case what the body leaves in the output tiles is the concatenation's block on the rows written
    back. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) (fun _ =>
        iprop((dats m 0 c).Φ t.succ ∗ (dats m 0 c).owesAt () t.succ
          ∗ (dats m 0 c).leaves 0 t ∗ (dats m 0 c).leaves 1 t ∗ (dats m 0 c).leaves 2 t
          ∗ (dats m 0 c).leaves 3 t ∗ (dats m 0 c).leaves 4 t ∗ (dats m 0 c).leaves 5 t)) := by
  simp only [before_in0, before_in1, before_in2, before_in3, before_out4, before_out5]
  rw [show (dats m 0 c).Φ t.succ = (dats m 0 c).Φ t.castSucc from rfl,
    show (dats m 0 c).owesAt () t.succ = (dats m 0 c).owesAt () t.castSucc from rfl]
  rw [leaves_in0, leaves_in1, leaves_in2, leaves_in3, leaves_out4, leaves_out5]
  unfold bodyAt0
  have hN : t.val < 65 := lt_of_lt_of_eq t.isLt (show cfg0.N = 65 from N_0)
  by_cases h : t.val < 64
  · iintro ⟨HΦ, Ho, ⟨%d0, H0⟩, ⟨%d1, H1⟩, ⟨%d2, H2⟩, ⟨%d3, H3⟩, ⟨%d4, H4⟩, ⟨%d5, H5⟩⟩
    iapply ((run_copy c (grid0.coords t) _ _ _ _ _ _ _ _ _ _ _ _ ((copies_iff t).mpr h)
      (fun h' => absurd ((appends_iff t).mp h') (by omega)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists (iblk m c 0 t); rw [fill_copyK m c t h]; iexact H4
    · iexists (iblk m c 1 t); rw [fill_copyV m c t h]; iexact H5
  · have h64 : t.val = 64 := by omega
    iintro ⟨HΦ, Ho, ⟨%d0, H0⟩, ⟨%d1, H1⟩, ⟨%d2, H2⟩, ⟨%d3, H3⟩, ⟨%d4, H4⟩, ⟨%d5, H5⟩⟩
    iapply ((run_append c (grid0.coords t) _ _ _ _ _ _ _ _ _ _ _ _ (fun h' => h ((copies_iff t).mp h'))
      ((appends_iff t).mpr h64) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%X4, %hX4, H4⟩, ⟨%X5, %hX5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists X4; rw [fill_appendK m c t h64 X4 hX4]; iexact H4
    · iexists X5; rw [fill_appendV m c t h64 X5 hX5]; iexact H5

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, nothing faulting, with each array of the pipeline at what the library
    computes from the proof data and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealBody.lean ====
/-
  The body of the cache append at one grid point, on any whole staging buffers, at any float instance.

  The grid has 65 points.  At a point below 64 the body copies the whole tile of each previous-cache block
  into the matching output tile; at point 64 it copies the 16 new rows into the first 16 rows of each output
  tile and leaves the other 112 rows of the tile as it found them.  Exactly one of the two branches is taken at
  every point.  Stated here: the two branch conditions in closed form over the grid, and for each case what the
  six staging buffers hold when the body returns.
-/
import proofs.«176381_j38603166056862_2_alg».proof.Proof.Gen.KernelIdeal.Frame
import proofs.«176381_j38603166056862_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branches, over the grid -/

/-- The copy of a previous-cache tile is taken exactly at the points below 64. -/
theorem copies_iff : ∀ t : Fin cfg0.N, k0_cond1 (grid0.coords t) = 1#1 ↔ t.val < 64 :=
  (by decide +kernel : ∀ t : Fin grid0.N, k0_cond1 (grid0.coords t) = 1#1 ↔ t.val < 64)

/-- The copy of the new rows is taken exactly at point 64. -/
theorem appends_iff : ∀ t : Fin cfg0.N, k0_cond2 (grid0.coords t) = 1#1 ↔ t.val = 64 :=
  (by decide +kernel : ∀ t : Fin grid0.N, k0_cond2 (grid0.coords t) = 1#1 ↔ t.val = 64)

/-! ## The rectangles the body stores through -/

/-- The whole output tile, and its first 16 rows on the sequence axis. -/
abbrev rTile : Rect S2x128x32x128 := Rect.unit (s := S2x128x32x128) ![0, 0, 0, 0] S2x128x32x128.size inb_S2x128x32x128_S2x128x32x128_0_0_0_0
abbrev rHead : Rect S2x128x32x128 := Rect.unit (s := S2x128x32x128) ![0, 0, 0, 0] S2x16x32x128.size inb_S2x128x32x128_S2x16x32x128_0_0_0_0

theorem zero4 : (![0, 0, 0, 0] : Fin 4 → Nat) = fun _ => 0 := funext fun a => by fin_cases a <;> rfl

/-- The first 16 rows, on the sequence axis, of contents of an output tile. -/
abbrev head (X : Vec F S2x128x32x128 .f32) : Vec F S2x16x32x128 .f32 := View.ld X rHead

/-! ## The body's triple, case by case -/

set_option maxHeartbeats 1000000 in
/-- BELOW POINT 64: the two output tiles end holding the two previous-cache tiles, whole; the four inputs'
    buffers are left as found. -/
theorem run_copy (c : Dev nD) (i : grid0.Coords) (arg1 : Memref sig .tc .vmem S2x128x32x128 .f32) (harg1 : arg1.IsWhole) (arg2 : Memref sig .tc .vmem S2x128x32x128 .f32) (harg2 : arg2.IsWhole) (arg3 : Memref sig .tc .vmem S2x16x32x128 .f32) (harg3 : arg3.IsWhole) (arg4 : Memref sig .tc .vmem S2x16x32x128 .f32) (harg4 : arg4.IsWhole) (arg5 : Memref sig .tc .vmem S2x128x32x128 .f32) (harg5 : arg5.IsWhole) (arg6 : Memref sig .tc .vmem S2x128x32x128 .f32) (harg6 : arg6.IsWhole)
    (hc0 : k0_cond1 i = 1#1) (hc1 : ¬ k0_cond2 i = 1#1)
    (x0 x1 : Vec F S2x128x32x128 .f32) (x2 x3 : Vec F S2x16x32x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x0 ∗ owns (c : Thread nD τ) arg6 fullShare x1) -∗ K ⟨⟩))
          ⊢ wp frame (wpE (defs₀ (F := F)) Variants.none c none) E (cc0__append_kv_kernel i arg1 harg1 arg2 harg2 arg3 harg3 arg4 harg4 arg5 harg5 arg6 harg6) K := by
    intro E K
    simp only [cc0__append_kv_kernel_eq_skeleton]; unfold cc0__append_kv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_eq_canon _ _ _ (fun y => View.cover_of_tiled [⟨rTile, _⟩] S2x128x32x128.size (by rfl) y),
        View.readAt_eq_ld, harg1.read_unread, View.canon_unit_zero zero4]
      exact View.ld_unit_zero (S := S2x128x32x128) zero4 _ _
    iexists _; isplitr; swap; · iexact H5
    ipureintro
    rw [View.read_writes_eq_canon _ _ _ (fun y => View.cover_of_tiled [⟨rTile, _⟩] S2x128x32x128.size (by rfl) y),
      View.readAt_eq_ld, harg2.read_unread, View.canon_unit_zero zero4]
    exact View.ld_unit_zero (S := S2x128x32x128) zero4 _ _

set_option maxHeartbeats 1000000 in
/-- AT POINT 64: the first 16 rows of the two output tiles end holding the two new tiles; nothing is said of
    the tiles' other rows (the body does not touch them); the four inputs' buffers are left as found. -/
theorem run_append (c : Dev nD) (i : grid0.Coords) (arg1 : Memref sig .tc .vmem S2x128x32x128 .f32) (harg1 : arg1.IsWhole) (arg2 : Memref sig .tc .vmem S2x128x32x128 .f32) (harg2 : arg2.IsWhole) (arg3 : Memref sig .tc .vmem S2x16x32x128 .f32) (harg3 : arg3.IsWhole) (arg4 : Memref sig .tc .vmem S2x16x32x128 .f32) (harg4 : arg4.IsWhole) (arg5 : Memref sig .tc .vmem S2x128x32x128 .f32) (harg5 : arg5.IsWhole) (arg6 : Memref sig .tc .vmem S2x128x32x128 .f32) (harg6 : arg6.IsWhole)
    (hc0 : ¬ k0_cond1 i = 1#1) (hc1 : k0_cond2 i = 1#1)
    (x0 x1 : Vec F S2x128x32x128 .f32) (x2 x3 : Vec F S2x16x32x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ X, ⌜head X = x2⌝ ∗ owns (c : Thread nD τ) arg5 fullShare X) ∗ (∃ X, ⌜head X = x3⌝ ∗ owns (c : Thread nD τ) arg6 fullShare X)) -∗ K ⟨⟩))
          ⊢ wp frame (wpE (defs₀ (F := F)) Variants.none c none) E (cc0__append_kv_kernel i arg1 harg1 arg2 harg2 arg3 harg3 arg4 harg4 arg5 harg5 arg6 harg6) K := by
    intro E K
    simp only [cc0__append_kv_kernel_eq_skeleton]; unfold cc0__append_kv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap
      · iexists _; isplitr; swap; · iexact H4
        ipureintro; rfl
      ipureintro
      funext x
      show View.read (Elt F) arg5.view (arg5.view.writes (Elt F) f4 [⟨rHead, _⟩]) (rHead.emb x) = x2 x
      rw [View.read_writes_cons_emb, View.readAt_eq_ld, harg3.read_unread]
      exact congrFun (View.ld_unit_zero (S := S2x16x32x128) zero4 _ x2) x
    iexists _; isplitr; swap
    · iexists _; isplitr; swap; · iexact H5
      ipureintro; rfl
    ipureintro
    funext x
    show View.read (Elt F) arg6.view (arg6.view.writes (Elt F) f5 [⟨rHead, _⟩]) (rHead.emb x) = x3 x
    rw [View.read_writes_cons_emb, View.readAt_eq_ld, harg4.read_unread]
    exact congrFun (View.ld_unit_zero (S := S2x16x32x128) zero4 _ x3) x

end Cert.KernelIdeal.Body

end
-- ==== Proof.IdealRun.lean ====
/-
  The cache append as a pipeline: its proof data, the body obligation at every grid point, the run and the frame.

  Each result array is the concatenation, along the sequence axis, of a previous cache (8192 rows) and the new
  entries (16 rows).  Point t < 64 writes back rows 128 t … 128 t + 127, the previous cache's rows there; point 64
  writes back rows 8192 … 8207 only — its tile overhangs the array by 112 rows, which the write-back leaves out —
  and those are the 16 new rows.  So what every point writes back is that point's block of the concatenation, and
  that is all the proof data says of an output tile: the rows of the tile that are not written back are not named.
-/
import proofs.«176381_j38603166056862_2_alg».proof.Proof.IdealBody
import proofs.«176381_j38603166056862_2_alg».proof.Proof.Concat

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The results, as whole arrays, and their blocks -/

/-- The key result: the previous keys then the new keys, along the sequence axis; the value result likewise. -/
def catK (c : Dev nD) : S2x8208x32x128.Idx → Elt F .f32 :=
  Cert.Append.cat (V m c main_arg0 : S2x8192x32x128.Idx → Elt F .f32) (V m c main_arg2 : S2x16x32x128.Idx → Elt F .f32)
def catV (c : Dev nD) : S2x8208x32x128.Idx → Elt F .f32 :=
  Cert.Append.cat (V m c main_arg1 : S2x8192x32x128.Idx → Elt F .f32) (V m c main_arg3 : S2x16x32x128.Idx → Elt F .f32)

/-- Point t's block of each result: the part of the tile that lies inside the array. -/
def blkK (c : Dev nD) (t : Fin cfg0.N) : ((cfg0.win 4).xblock (cfg0.grid.coords t)).Idx → Elt F (cfg0.win 4).elt :=
  ((cfg0.win 4).blk t).view.read (Elt F) (catK m c)
def blkV (c : Dev nD) (t : Fin cfg0.N) : ((cfg0.win 5).xblock (cfg0.grid.coords t)).Idx → Elt F (cfg0.win 5).elt :=
  ((cfg0.win 5).blk t).view.read (Elt F) (catV m c)

/-! ## The proof data -/

/-- After the body at point t: each input's buffer at its block; each output's at its block of the concatenation
    on the rows written back, and (a choice nothing reads) the zero word on the others. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) (fun _ => Scalar.ofBits .f32 0#32) (blkK m c t)
    | ⟨5, _⟩ => win0_5.fill (grid0.coords t) (fun _ => Scalar.ofBits .f32 0#32) (blkV m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out4 (c : Dev nD) (t : Fin cfg0.N) :
    (dats m 0 c).after 4 t = win0_4.fill (grid0.coords t) (fun _ => Scalar.ofBits .f32 0#32) (blkK m c t) := by dsimp only [dats]
theorem after_out5 (c : Dev nD) (t : Fin cfg0.N) :
    (dats m 0 c).after 5 t = win0_5.fill (grid0.coords t) (fun _ => Scalar.ofBits .f32 0#32) (blkV m c t) := by dsimp only [dats]

/-- What a point writes back is its block of the concatenation. -/
theorem flushedK (c : Dev nD) (t : Fin cfg0.N) : (dats m 0 c).flushed 4 t = blkK m c t := by
  show (cfg0.win 4).cut (cfg0.grid.coords t) ((dats m 0 c).after 4 t) = _
  rw [after_out4]; exact win0_4.cut_fill _ _ _
theorem flushedV (c : Dev nD) (t : Fin cfg0.N) : (dats m 0 c).flushed 5 t = blkV m c t := by
  show (cfg0.win 5).cut (cfg0.grid.coords t) ((dats m 0 c).after 5 t) = _
  rw [after_out5]; exact win0_5.cut_fill _ _ _

/-! ## What the body finds -/

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d

/-- Every point writes both outputs back, so an output tile arrives at contents nothing names. -/
theorem before_out4 (c : Dev nD) (t : Fin cfg0.N) (d) : (dats m 0 c).before 4 t d = d :=
  (dats m 0 c).before_out_reset 4 rfl t (by
    by_cases h : t.val = 0
    · exact .inl h
    · exact .inr ⟨h, flush0_4 _⟩) d
theorem before_out5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## What the body must leave -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- One of the two branches stores into the outputs at every point. -/
theorem live4 : ∀ t : Fin cfg0.N, cfg0.idle 4 (grid0.coords t) = false :=
  (by decide +kernel : ∀ t : Fin grid0.N, idle0 4 (grid0.coords t) = false)
theorem live5 : ∀ t : Fin cfg0.N, cfg0.idle 5 (grid0.coords t) = false :=
  (by decide +kernel : ∀ t : Fin grid0.N, idle0 5 (grid0.coords t) = false)

theorem leaves_in0 (c : Dev nD) (t : Fin cfg0.N) :
    (dats m 0 c).leaves 0 t = owns (c : Thread nD τ) (st0_0 t) fullShare (iblk m c 0 t) := by
  unfold Dat.leaves; rw [live0 t, after_in0]
theorem leaves_in1 (c : Dev nD) (t : Fin cfg0.N) :
    (dats m 0 c).leaves 1 t = owns (c : Thread nD τ) (st0_1 t) fullShare (iblk m c 1 t) := by
  unfold Dat.leaves; rw [live1 t, after_in1]
theorem leaves_in2 (c : Dev nD) (t : Fin cfg0.N) :
    (dats m 0 c).leaves 2 t = owns (c : Thread nD τ) (st0_2 t) fullShare (iblk m c 2 t) := by
  unfold Dat.leaves; rw [live2 t, after_in2]
theorem leaves_in3 (c : Dev nD) (t : Fin cfg0.N) :
    (dats m 0 c).leaves 3 t = owns (c : Thread nD τ) (st0_3 t) fullShare (iblk m c 3 t) := by
  unfold Dat.leaves; rw [live3 t, after_in3]
/-- An output tile is stated on the rows written back only: it may hold anything that is the point's block of
    the concatenation there. -/
theorem leaves_out4 (c : Dev nD) (t : Fin cfg0.N) :
    (dats m 0 c).leaves 4 t = iprop(∃ d, owns (c : Thread nD τ) (st0_4 t) fullShare (win0_4.fill (grid0.coords t) d (blkK m c t))) := by
  have e := flushedK m c t
  unfold Dat.flushed at e
  unfold Dat.leaves; rw [live4 t, e]
theorem leaves_out5 (c : Dev nD) (t : Fin cfg0.N) :
    (dats m 0 c).leaves 5 t = iprop(∃ d, owns (c : Thread nD τ) (st0_5 t) fullShare (win0_5.fill (grid0.coords t) d (blkV m c t))) := by
  have e := flushedV m c t
  unfold Dat.flushed at e
  unfold Dat.leaves; rw [live5 t, e]

/-! ## The index maps and the tiles' extents, over the grid -/

/-- A previous cache's block index on the sequence axis is the point, held at 63 from point 63 on; a result's is
    the point; the new entries' is zero; on the other three axes every block index is zero. -/
theorem idx0 : ∀ t : Fin cfg0.N, win0_0.index t (0 : Fin 4) = 0 ∧ win0_0.index t (1 : Fin 4) = (if t.val < 64 then t.val else 63) ∧ win0_0.index t (2 : Fin 4) = 0 ∧ win0_0.index t (3 : Fin 4) = 0 :=
  (by decide +kernel : ∀ t : Fin grid0.N, _)
theorem idx1 : ∀ t : Fin cfg0.N, win0_1.index t (0 : Fin 4) = 0 ∧ win0_1.index t (1 : Fin 4) = (if t.val < 64 then t.val else 63) ∧ win0_1.index t (2 : Fin 4) = 0 ∧ win0_1.index t (3 : Fin 4) = 0 :=
  (by decide +kernel : ∀ t : Fin grid0.N, _)
theorem idx2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 4) = 0 ∧ win0_4.index t (1 : Fin 4) = t.val ∧ win0_4.index t (2 : Fin 4) = 0 ∧ win0_4.index t (3 : Fin 4) = 0 :=
  (by decide +kernel : ∀ t : Fin grid0.N, _)
theorem idx5 : ∀ t : Fin cfg0.N, win0_5.index t (0 : Fin 4) = 0 ∧ win0_5.index t (1 : Fin 4) = t.val ∧ win0_5.index t (2 : Fin 4) = 0 ∧ win0_5.index t (3 : Fin 4) = 0 :=
  (by decide +kernel : ∀ t : Fin grid0.N, _)

/-- The part of a result's tile inside the array: all 128 rows below point 64, the first 16 at point 64. -/
theorem ext4 : ∀ t : Fin cfg0.N, win0_4.xsize (grid0.coords t) (0 : Fin 4) = 2 ∧ win0_4.xsize (grid0.coords t) (1 : Fin 4) = (if t.val < 64 then 128 else 16) ∧ win0_4.xsize (grid0.coords t) (2 : Fin 4) = 32 ∧ win0_4.xsize (grid0.coords t) (3 : Fin 4) = 128 :=
  (by decide +kernel : ∀ t : Fin grid0.N, _)
theorem ext5 : ∀ t : Fin cfg0.N, win0_5.xsize (grid0.coords t) (0 : Fin 4) = 2 ∧ win0_5.xsize (grid0.coords t) (1 : Fin 4) = (if t.val < 64 then 128 else 16) ∧ win0_5.xsize (grid0.coords t) (2 : Fin 4) = 32 ∧ win0_5.xsize (grid0.coords t) (3 : Fin 4) = 128 :=
  (by decide +kernel : ∀ t : Fin grid0.N, _)

/-! ## The blocks of the concatenation are what the body stores -/

/-- BELOW POINT 64 the tile lies inside the array, and the block of the concatenation there is the previous
    cache's block: a tile holding that block holds the concatenation's block on every row. -/
theorem fill_copyK (c : Dev nD) (t : Fin cfg0.N) (h : t.val < 64) :
    win0_4.fill (grid0.coords t) (iblk m c 0 t) (blkK m c t) = iblk m c 0 t := by
  have e : blkK m c t = win0_4.cut (grid0.coords t) (iblk m c 0 t) := by
    funext j
    obtain ⟨p0, p1, p2, p3⟩ := idx0 t
    obtain ⟨q0, q1, q2, q3⟩ := idx4 t
    rw [if_pos h] at p1
    show catK m c (((cfg0.win 4).blk t).view.emb j) = V m c main_arg0 (((cfg0.win 0).blk t).view.emb (win0_4.xinj (grid0.coords t) j))
    unfold catK
    refine Cert.Append.cat_prev _ _ _ _ (fun d => ?_)
    match d with
    | ⟨0, _⟩ => show win0_0.index t (0 : Fin 4) * 2 + 1 * (j 0).val = win0_4.index t (0 : Fin 4) * 2 + 1 * (j 0).val; omega
    | ⟨1, _⟩ => show win0_0.index t (1 : Fin 4) * 128 + 1 * (j 1).val = win0_4.index t (1 : Fin 4) * 128 + 1 * (j 1).val; omega
    | ⟨2, _⟩ => show win0_0.index t (2 : Fin 4) * 32 + 1 * (j 2).val = win0_4.index t (2 : Fin 4) * 32 + 1 * (j 2).val; omega
    | ⟨3, _⟩ => show win0_0.index t (3 : Fin 4) * 128 + 1 * (j 3).val = win0_4.index t (3 : Fin 4) * 128 + 1 * (j 3).val; omega
  rw [e]; exact win0_4.fill_cut _ _
theorem fill_copyV (c : Dev nD) (t : Fin cfg0.N) (h : t.val < 64) :
    win0_5.fill (grid0.coords t) (iblk m c 1 t) (blkV m c t) = iblk m c 1 t := by
  have e : blkV m c t = win0_5.cut (grid0.coords t) (iblk m c 1 t) := by
    funext j
    obtain ⟨p0, p1, p2, p3⟩ := idx1 t
    obtain ⟨q0, q1, q2, q3⟩ := idx5 t
    rw [if_pos h] at p1
    show catV m c (((cfg0.win 5).blk t).view.emb j) = V m c main_arg1 (((cfg0.win 1).blk t).view.emb (win0_5.xinj (grid0.coords t) j))
    unfold catV
    refine Cert.Append.cat_prev _ _ _ _ (fun d => ?_)
    match d with
    | ⟨0, _⟩ => show win0_1.index t (0 : Fin 4) * 2 + 1 * (j 0).val = win0_5.index t (0 : Fin 4) * 2 + 1 * (j 0).val; omega
    | ⟨1, _⟩ => show win0_1.index t (1 : Fin 4) * 128 + 1 * (j 1).val = win0_5.index t (1 : Fin 4) * 128 + 1 * (j 1).val; omega
    | ⟨2, _⟩ => show win0_1.index t (2 : Fin 4) * 32 + 1 * (j 2).val = win0_5.index t (2 : Fin 4) * 32 + 1 * (j 2).val; omega
    | ⟨3, _⟩ => show win0_1.index t (3 : Fin 4) * 128 + 1 * (j 3).val = win0_5.index t (3 : Fin 4) * 128 + 1 * (j 3).val; omega
  rw [e]; exact win0_5.fill_cut _ _

/-- AT POINT 64 only the tile's first 16 rows lie inside the array, and the block of the concatenation there is
    the new entries: a tile whose first 16 rows hold them holds the concatenation's block on the rows written back. -/
theorem fill_appendK (c : Dev nD) (t : Fin cfg0.N) (h : t.val = 64) (X : Vec F S2x128x32x128 .f32)
    (hX : head X = iblk m c 2 t) : win0_4.fill (grid0.coords t) X (blkK m c t) = X := by
  have e : blkK m c t = win0_4.cut (grid0.coords t) X := by
    funext j
    obtain ⟨p0, p1, p2, p3⟩ := idx2 t
    obtain ⟨q0, q1, q2, q3⟩ := idx4 t
    obtain ⟨s0, s1, s2, s3⟩ := ext4 t
    rw [if_neg (by omega)] at s1
    have b0 : (j 0).val < 2 := lt_of_lt_of_eq (j 0).isLt s0
    have b1 : (j 1).val < 16 := lt_of_lt_of_eq (j 1).isLt s1
    have b2 : (j 2).val < 32 := lt_of_lt_of_eq (j 2).isLt s2
    have b3 : (j 3).val < 128 := lt_of_lt_of_eq (j 3).isLt s3
    -- the same coordinates, as an index of the new entries' tile
    let j' : S2x16x32x128.Idx := fun a => match a with
      | ⟨0, _⟩ => ⟨(j 0).val, b0⟩ | ⟨1, _⟩ => ⟨(j 1).val, b1⟩ | ⟨2, _⟩ => ⟨(j 2).val, b2⟩ | ⟨3, _⟩ => ⟨(j 3).val, b3⟩
    have hx : win0_4.cut (grid0.coords t) X j = head X j' := by
      show X (win0_4.xinj (grid0.coords t) j) = X (rHead.emb j')
      congr 1; funext a; apply Fin.ext
      match a with
      | ⟨0, _⟩ => show (j 0).val = 0 + 1 * (j 0).val; omega
      | ⟨1, _⟩ => show (j 1).val = 0 + 1 * (j 1).val; omega
      | ⟨2, _⟩ => show (j 2).val = 0 + 1 * (j 2).val; omega
      | ⟨3, _⟩ => show (j 3).val = 0 + 1 * (j 3).val; omega
    rw [hx, hX]
    show catK m c (((cfg0.win 4).blk t).view.emb j) = V m c main_arg2 (((cfg0.win 2).blk t).view.emb j')
    unfold catK
    refine Cert.Append.cat_new _ _ _ _ ?_ ?_ ?_ ?_
    · show win0_2.index t (0 : Fin 4) * 2 + 1 * (j 0).val = win0_4.index t (0 : Fin 4) * 2 + 1 * (j 0).val; omega
    · show win0_2.index t (1 : Fin 4) * 16 + 1 * (j 1).val + 8192 = win0_4.index t (1 : Fin 4) * 128 + 1 * (j 1).val; omega
    · show win0_2.index t (2 : Fin 4) * 32 + 1 * (j 2).val = win0_4.index t (2 : Fin 4) * 32 + 1 * (j 2).val; omega
    · show win0_2.index t (3 : Fin 4) * 128 + 1 * (j 3).val = win0_4.index t (3 : Fin 4) * 128 + 1 * (j 3).val; omega
  rw [e]; exact win0_4.fill_cut _ _
theorem fill_appendV (c : Dev nD) (t : Fin cfg0.N) (h : t.val = 64) (X : Vec F S2x128x32x128 .f32)
    (hX : head X = iblk m c 3 t) : win0_5.fill (grid0.coords t) X (blkV m c t) = X := by
  have e : blkV m c t = win0_5.cut (grid0.coords t) X := by
    funext j
    obtain ⟨p0, p1, p2, p3⟩ := idx3 t
    obtain ⟨q0, q1, q2, q3⟩ := idx5 t
    obtain ⟨s0, s1, s2, s3⟩ := ext5 t
    rw [if_neg (by omega)] at s1
    have b0 : (j 0).val < 2 := lt_of_lt_of_eq (j 0).isLt s0
    have b1 : (j 1).val < 16 := lt_of_lt_of_eq (j 1).isLt s1
    have b2 : (j 2).val < 32 := lt_of_lt_of_eq (j 2).isLt s2
    have b3 : (j 3).val < 128 := lt_of_lt_of_eq (j 3).isLt s3
    -- the same coordinates, as an index of the new entries' tile
    let j' : S2x16x32x128.Idx := fun a => match a with
      | ⟨0, _⟩ => ⟨(j 0).val, b0⟩ | ⟨1, _⟩ => ⟨(j 1).val, b1⟩ | ⟨2, _⟩ => ⟨(j 2).val, b2⟩ | ⟨3, _⟩ => ⟨(j 3).val, b3⟩
    have hx : win0_5.cut (grid0.coords t) X j = head X j' := by
      show X (win0_5.xinj (grid0.coords t) j) = X (rHead.emb j')
      congr 1; funext a; apply Fin.ext
      match a with
      | ⟨0, _⟩ => show (j 0).val = 0 + 1 * (j 0).val; omega
      | ⟨1, _⟩ => show (j 1).val = 0 + 1 * (j 1).val; omega
      | ⟨2, _⟩ => show (j 2).val = 0 + 1 * (j 2).val; omega
      | ⟨3, _⟩ => show (j 3).val = 0 + 1 * (j 3).val; omega
    rw [hx, hX]
    show catV m c (((cfg0.win 5).blk t).view.emb j) = V m c main_arg3 (((cfg0.win 3).blk t).view.emb j')
    unfold catV
    refine Cert.Append.cat_new _ _ _ _ ?_ ?_ ?_ ?_
    · show win0_3.index t (0 : Fin 4) * 2 + 1 * (j 0).val = win0_5.index t (0 : Fin 4) * 2 + 1 * (j 0).val; omega
    · show win0_3.index t (1 : Fin 4) * 16 + 1 * (j 1).val + 8192 = win0_5.index t (1 : Fin 4) * 128 + 1 * (j 1).val; omega
    · show win0_3.index t (2 : Fin 4) * 32 + 1 * (j 2).val = win0_5.index t (2 : Fin 4) * 32 + 1 * (j 2).val; omega
    · show win0_3.index t (3 : Fin 4) * 128 + 1 * (j 3).val = win0_5.index t (3 : Fin 4) * 128 + 1 * (j 3).val; omega
  rw [e]; exact win0_5.fill_cut _ _

/-! ## The body obligation -/

set_option maxHeartbeats 800000 in
/-- The body at any point: the inputs' tiles hold their blocks, the outputs' anything; the point is below 64 or is
    64, and in either case what the body leaves in the output tiles is the concatenation's block on the rows written
    back. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) (fun _ =>
        iprop((dats m 0 c).Φ t.succ ∗ (dats m 0 c).owesAt () t.succ
          ∗ (dats m 0 c).leaves 0 t ∗ (dats m 0 c).leaves 1 t ∗ (dats m 0 c).leaves 2 t
          ∗ (dats m 0 c).leaves 3 t ∗ (dats m 0 c).leaves 4 t ∗ (dats m 0 c).leaves 5 t)) := by
  simp only [before_in0, before_in1, before_in2, before_in3, before_out4, before_out5]
  rw [show (dats m 0 c).Φ t.succ = (dats m 0 c).Φ t.castSucc from rfl,
    show (dats m 0 c).owesAt () t.succ = (dats m 0 c).owesAt () t.castSucc from rfl]
  rw [leaves_in0, leaves_in1, leaves_in2, leaves_in3, leaves_out4, leaves_out5]
  unfold bodyAt0
  have hN : t.val < 65 := lt_of_lt_of_eq t.isLt (show cfg0.N = 65 from N_0)
  by_cases h : t.val < 64
  · iintro ⟨HΦ, Ho, ⟨%d0, H0⟩, ⟨%d1, H1⟩, ⟨%d2, H2⟩, ⟨%d3, H3⟩, ⟨%d4, H4⟩, ⟨%d5, H5⟩⟩
    iapply ((run_copy c (grid0.coords t) _ _ _ _ _ _ _ _ _ _ _ _ ((copies_iff t).mpr h)
      (fun h' => absurd ((appends_iff t).mp h') (by omega)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists (iblk m c 0 t); rw [fill_copyK m c t h]; iexact H4
    · iexists (iblk m c 1 t); rw [fill_copyV m c t h]; iexact H5
  · have h64 : t.val = 64 := by omega
    iintro ⟨HΦ, Ho, ⟨%d0, H0⟩, ⟨%d1, H1⟩, ⟨%d2, H2⟩, ⟨%d3, H3⟩, ⟨%d4, H4⟩, ⟨%d5, H5⟩⟩
    iapply ((run_append c (grid0.coords t) _ _ _ _ _ _ _ _ _ _ _ _ (fun h' => h ((copies_iff t).mp h'))
      ((appends_iff t).mpr h64) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%X4, %hX4, H4⟩, ⟨%X5, %hX5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists X4; rw [fill_appendK m c t h64 X4 hX4]; iexact H4
    · iexists X5; rw [fill_appendV m c t h64 X5 hX5]; iexact H5

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, nothing faulting, with each array of the pipeline at what the library
    computes from the proof data and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.IdealValue.lean ====
/-
  The two result arrays after the run: the two concatenations.

  Every point writes back its block of the concatenation, and the 65 blocks — 64 whole tiles of 128 rows and the
  16 rows of the last tile that lie inside the array — cover the 8208 rows: so each result array ends holding the
  concatenation, whatever it held before and whatever the last tile's other rows held.
-/
import proofs.«176381_j38603166056862_2_alg».proof.Proof.IdealRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The blocks cover the array -/

/-- An index of the result is in point t's block iff each coordinate is in the block's range: the tile's range
    on axes 0, 2 and 3, and on the sequence axis the tile's rows that lie inside the array. -/
theorem mem_blk4 (t : Fin cfg0.N) (i : S2x8208x32x128.Idx) :
    i ∈ ((cfg0.win 4).blk t).view.set ↔ ∀ a : Fin 4, win0_4.index t a * S2x128x32x128.size a ≤ (i a).val ∧ (i a).val < win0_4.index t a * S2x128x32x128.size a + win0_4.xsize (grid0.coords t) a := by
  show i ∈ ((View.whole main_v0_0).slice (win0_4.rect t)).set ↔ _
  rw [View.set_slice_whole, Rect.mem_set_unit]
  exact Iff.rfl

/-- Row r of the result lies in the block of point r / 128: rows below 8192 in one of the 64 whole tiles, rows
    8192 … 8207 in the 16 rows of the last tile that lie inside the array. -/
theorem coverK (i : S2x8208x32x128.Idx) :
    ∃ t : Fin cfg0.N, (cfg0.win 4).flush t = true ∧ i ∈ ((cfg0.win 4).blk t).view.set := by
  have h0 : (i 0).val < 2 := (i 0).isLt
  have h1 : (i 1).val < 8208 := (i 1).isLt
  have h2 : (i 2).val < 32 := (i 2).isLt
  have h3 : (i 3).val < 128 := (i 3).isLt
  have hN : cfg0.N = 65 := N_0
  refine ⟨⟨(i 1).val / 128, by rw [hN]; omega⟩, flush0_4 _, ?_⟩
  rw [mem_blk4]
  obtain ⟨q0, q1, q2, q3⟩ := idx4 ⟨(i 1).val / 128, by rw [hN]; omega⟩
  obtain ⟨s0, s1, s2, s3⟩ := ext4 ⟨(i 1).val / 128, by rw [hN]; omega⟩
  intro a
  match a with
  | ⟨0, _⟩ =>
    show win0_4.index _ (0 : Fin 4) * 2 ≤ (i 0).val ∧ (i 0).val < win0_4.index _ (0 : Fin 4) * 2 + win0_4.xsize _ (0 : Fin 4)
    rw [q0, s0]; omega
  | ⟨1, _⟩ =>
    show win0_4.index _ (1 : Fin 4) * 128 ≤ (i 1).val ∧ (i 1).val < win0_4.index _ (1 : Fin 4) * 128 + win0_4.xsize _ (1 : Fin 4)
    rw [q1, s1]
    show (i 1).val / 128 * 128 ≤ (i 1).val ∧ (i 1).val < (i 1).val / 128 * 128 + (if (i 1).val / 128 < 64 then 128 else 16)
    split <;> omega
  | ⟨2, _⟩ =>
    show win0_4.index _ (2 : Fin 4) * 32 ≤ (i 2).val ∧ (i 2).val < win0_4.index _ (2 : Fin 4) * 32 + win0_4.xsize _ (2 : Fin 4)
    rw [q2, s2]; omega
  | ⟨3, _⟩ =>
    show win0_4.index _ (3 : Fin 4) * 128 ≤ (i 3).val ∧ (i 3).val < win0_4.index _ (3 : Fin 4) * 128 + win0_4.xsize _ (3 : Fin 4)
    rw [q3, s3]; omega

/-- An index of the result is in point t's block iff each coordinate is in the block's range: the tile's range
    on axes 0, 2 and 3, and on the sequence axis the tile's rows that lie inside the array. -/
theorem mem_blk5 (t : Fin cfg0.N) (i : S2x8208x32x128.Idx) :
    i ∈ ((cfg0.win 5).blk t).view.set ↔ ∀ a : Fin 4, win0_5.index t a * S2x128x32x128.size a ≤ (i a).val ∧ (i a).val < win0_5.index t a * S2x128x32x128.size a + win0_5.xsize (grid0.coords t) a := by
  show i ∈ ((View.whole main_v0_1).slice (win0_5.rect t)).set ↔ _
  rw [View.set_slice_whole, Rect.mem_set_unit]
  exact Iff.rfl

/-- Row r of the result lies in the block of point r / 128: rows below 8192 in one of the 64 whole tiles, rows
    8192 … 8207 in the 16 rows of the last tile that lie inside the array. -/
theorem coverV (i : S2x8208x32x128.Idx) :
    ∃ t : Fin cfg0.N, (cfg0.win 5).flush t = true ∧ i ∈ ((cfg0.win 5).blk t).view.set := by
  have h0 : (i 0).val < 2 := (i 0).isLt
  have h1 : (i 1).val < 8208 := (i 1).isLt
  have h2 : (i 2).val < 32 := (i 2).isLt
  have h3 : (i 3).val < 128 := (i 3).isLt
  have hN : cfg0.N = 65 := N_0
  refine ⟨⟨(i 1).val / 128, by rw [hN]; omega⟩, flush0_5 _, ?_⟩
  rw [mem_blk5]
  obtain ⟨q0, q1, q2, q3⟩ := idx5 ⟨(i 1).val / 128, by rw [hN]; omega⟩
  obtain ⟨s0, s1, s2, s3⟩ := ext5 ⟨(i 1).val / 128, by rw [hN]; omega⟩
  intro a
  match a with
  | ⟨0, _⟩ =>
    show win0_5.index _ (0 : Fin 4) * 2 ≤ (i 0).val ∧ (i 0).val < win0_5.index _ (0 : Fin 4) * 2 + win0_5.xsize _ (0 : Fin 4)
    rw [q0, s0]; omega
  | ⟨1, _⟩ =>
    show win0_5.index _ (1 : Fin 4) * 128 ≤ (i 1).val ∧ (i 1).val < win0_5.index _ (1 : Fin 4) * 128 + win0_5.xsize _ (1 : Fin 4)
    rw [q1, s1]
    show (i 1).val / 128 * 128 ≤ (i 1).val ∧ (i 1).val < (i 1).val / 128 * 128 + (if (i 1).val / 128 < 64 then 128 else 16)
    split <;> omega
  | ⟨2, _⟩ =>
    show win0_5.index _ (2 : Fin 4) * 32 ≤ (i 2).val ∧ (i 2).val < win0_5.index _ (2 : Fin 4) * 32 + win0_5.xsize _ (2 : Fin 4)
    rw [q2, s2]; omega
  | ⟨3, _⟩ =>
    show win0_5.index _ (3 : Fin 4) * 128 ≤ (i 3).val ∧ (i 3).val < win0_5.index _ (3 : Fin 4) * 128 + win0_5.xsize _ (3 : Fin 4)
    rw [q3, s3]; omega

/-! ## The arrays after the run -/

/-- The key result ends holding the concatenation of the previous keys and the new keys; -/
theorem finalK (c : Dev nD) : (dats m 0 c).arrAt 4 cfg0.N = catK m c :=
  (dats m 0 c).arrAt_eq_of_cover 4 (catK m c) (fun t _ => flushedK m c t) coverK
/-- the value result, of the previous values and the new values. -/
theorem finalV (c : Dev nD) : (dats m 0 c).arrAt 5 cfg0.N = catV m c :=
  (dats m 0 c).arrAt_eq_of_cover 5 (catV m c) (fun t _ => flushedV m c t) coverV

/-- The run, read: every weakly fair execution terminates, nothing faulting, with the two results at the two
    concatenations of the argument arrays and the four arguments as they were. -/
theorem run : θ_run defs (onTc (τ := τ) (main (F := F))) ⟨m, fun _ => 0, ρ⟩ fun r => ∀ c : Dev nD,
      r.2.mem ((c.tc : Thread nD τ).loc main_v0_0) = catK m c
      ∧ r.2.mem ((c.tc : Thread nD τ).loc main_v0_1) = catV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (finalK m c), ((h c).1 5).trans (finalV m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Body

end
-- ==== Proof.RefCat.lean ====
/-
  The reference's two results are the two concatenations.

  The reference program is two host concatenations along the sequence axis, of the previous keys with the new keys
  and of the previous values with the new values; its run ends with each result at that concatenation of the
  argument arrays.  That is the specification's function, word for word.
-/
import proofs.«176381_j38603166056862_2_alg».proof.Proof.Gen.ReferenceIdeal.Run
import proofs.«176381_j38603166056862_2_alg».proof.Proof.Concat

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The host's concatenation of a previous cache and the new entries is the specification's. -/
theorem result_eq (a : S2x8192x32x128.Idx → Elt F .f32) (b : S2x16x32x128.Idx → Elt F .f32) :
    concatenate S2x8208x32x128 1 [⟨S2x8192x32x128, a⟩, ⟨S2x16x32x128, b⟩] concatenates_S2x8192x32x128_S2x16x32x128_S2x8208x32x128_d1
      = Cert.Append.cat a b := rfl

end Cert.ReferenceIdeal.RefValue

end
-- ==== Proof.lean ====
/-
  The certificate of a key/value cache append: a Pallas kernel that builds, for the keys and for the values, the
  array of a previous cache (8192 rows on the sequence axis) followed by 16 new rows, against the reference's two
  concatenations.

  The kernel walks a grid of 65 points over tiles of 128 rows.  At the first 64 points it copies a tile of each
  previous cache into the matching tile of each result; at the last point it copies the 16 new rows into the first
  16 rows of the last tile, which overhangs the 8208-row result by 112 rows — the write-back moves only the rows
  inside the array.  No arithmetic is done on any element, so the two programs agree on every input, finite or not:
  the precondition is never opened.

  * `Proof/Concat.lean` — the specification: the concatenation along the sequence axis, read at an index.
  * `Proof/IdealBody.lean`, `Proof/BitsBody.lean` — the body at one grid point, case by case (the same text at the two
    instances of the float operations: the idealized program and the word-level one).
  * `Proof/IdealRun.lean`, `Proof/BitsRun.lean` — the pipeline's proof data, the body obligation at every point, the run
    and the frame.
  * `Proof/IdealValue.lean` — the blocks written back cover the result, so each result ends at the concatenation.
  * `Proof/RefCat.lean` — the reference's results are the same concatenations.

  The idealization rewrote no operation, so its soundness conjunct is `True`.
-/
import proofs.«176381_j38603166056862_2_alg».proof.Defs
import proofs.«176381_j38603166056862_2_alg».proof.Proof.Gen.Kernel
import proofs.«176381_j38603166056862_2_alg».proof.Proof.Gen.KernelIdeal
import proofs.«176381_j38603166056862_2_alg».proof.Proof.Gen.ReferenceIdeal
import proofs.«176381_j38603166056862_2_alg».proof.Proof.Gen.Pre_finite_inputs
import proofs.«176381_j38603166056862_2_alg».proof.Proof.BitsRun
import proofs.«176381_j38603166056862_2_alg».proof.Proof.IdealValue
import proofs.«176381_j38603166056862_2_alg».proof.Proof.RefCat
import Idealize.ShloMosaic.Adequacy
import Idealize.ShloMosaic.Init

noncomputable section

namespace Cert.Proof

open Idealize.ShloMosaic Idealize.SL.Sem

/-- The word-level kernel runs and leaves its four arguments as they were. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- So does the reference: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten. -/
theorem preserves : Cert.preserves_Kernel_KernelIdeal := trivial

/-- From memories that agree on the four arguments, the kernel's two results and the reference's two results are
    the same two concatenations. -/
theorem algebraic : Cert.algebraic_KernelIdeal_ReferenceIdeal := by
  intro m ρ m' ρ' _ hagree
  refine ⟨fun c => Cert.KernelIdeal.Body.catK m c, fun c => Cert.KernelIdeal.Body.catV m c,
    Cert.KernelIdeal.Body.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefValue.result_eq, (hagree c).1, (hagree c).2.2.1]; rfl
  · rw [Cert.ReferenceIdeal.RefValue.result_eq, (hagree c).2.1, (hagree c).2.2.2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
